-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S2000x128 : Shape := ⟨2, ![2000, 128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 66
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S690000x1, .f32⟩
  | .hbm, ⟨48, _⟩ => ⟨S_, .i32⟩
  | .hbm, ⟨49, _⟩ => ⟨S690000, .i32⟩
  | .hbm, ⟨50, _⟩ => ⟨S690000, .i1⟩
  | .hbm, ⟨51, _⟩ => ⟨S_, .i32⟩
  | .hbm, ⟨52, _⟩ => ⟨S690000, .i32⟩
  | .hbm, ⟨53, _⟩ => ⟨S690000, .i32⟩
  | .hbm, ⟨54, _⟩ => ⟨S690000, .i32⟩
  | .hbm, ⟨55, _⟩ => ⟨S690000x1, .i32⟩
  | .hbm, ⟨56, _⟩ => ⟨S690000x128, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S690000, .i32⟩
  | .hbm, ⟨29, _⟩ => ⟨S690000, .i1⟩
  | .hbm, ⟨30, _⟩ => ⟨S_, .i32⟩
  | .hbm, ⟨31, _⟩ => ⟨S690000, .i32⟩
  | .hbm, ⟨32, _⟩ => ⟨S690000, .i32⟩
  | .hbm, ⟨33, _⟩ => ⟨S690000, .i32⟩
  | .hbm, ⟨34, _⟩ => ⟨S690000x1, .i32⟩
  | .hbm, ⟨35, _⟩ => ⟨S690000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S690000, .f32⟩
  | .hbm, ⟨46, _⟩ => ⟨S50000x128, .f32⟩
  | .hbm, ⟨47, _⟩ => ⟨S690000x1, .f32⟩
  | .hbm, ⟨48, _⟩ => ⟨S_, .i32⟩
  | .hbm, ⟨49, _⟩ => ⟨S690000, .i32⟩
  | .hbm, ⟨50, _⟩ => ⟨S690000, .i1⟩
  | .hbm, ⟨51, _⟩ => ⟨S_, .i32⟩
  | .hbm, ⟨52, _⟩ => ⟨S690000, .i32⟩
  | .hbm, ⟨53, _⟩ => ⟨S690000, .i32⟩
  | .hbm, ⟨54, _⟩ => ⟨S690000, .i32⟩
  | .hbm, ⟨55, _⟩ => ⟨S690000x1, .i32⟩
  | .hbm, ⟨56, _⟩ => ⟨S690000x128, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.KernelRun.lean ====
/-
  The kernel program's run, with its result named.

  @main of the kernel program is five segments: the first kernel's region, three stretches of host operations (the
  aggregation, with the outlined `where` in the middle) and the second kernel's region. Every weakly fair execution
  runs them to the end without a fault, and the buffer contents at the last boundary are a fold through the
  segments: each host stretch applies its operations to the contents before it, each region replaces its arrays by
  what its write-backs leave. This module states that run with the RESULT buffer read off the last boundary's
  contents, beside the six argument arrays, which end as launched. What the last boundary holds at the result is
  worked out in the modules that follow.
-/
import proofs.«104477_j31327491457680_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the kernel program terminates, nothing
    faulting; the result buffer ends at the last boundary's contents (`W5`: the fold of the five segments over the
    launch memory) and the argument arrays end as launched. -/
theorem run_named : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Gcn.KernelRun

end
-- ==== Proof.GcnSpec.lean ====
/-
  The function both programs compute, stated once over whole arrays.

  A two-layer graph convolution on 50000 nodes with 128 features, 640000 directed edges and one self-loop per node:
    h   = x · W1                                     (`linear`)
    a   = A h,  A the degree-normalised adjacency     (`aggregate`)
    out = tanh (a + b1) · W2 + b2                     (`outLayer`)
  `linear` and `outLayer` are stated index by index on the extended reals: an entry of a matrix product is the
  sum over the contracted axis of the products of a row's and a column's entries. `aggregate` is stated as the
  host operations that compute it — edge endpoints read off the edge list and the self-loops appended, in-degrees by
  a scatter-add of ones, d^(-1/2) where the degree is positive and 0 elsewhere, one weight d^(-1/2)[src]·d^(-1/2)[dst]
  per edge, the rows of `h` gathered at the sources, scaled, and scatter-added at the destinations. Which row an edge
  reads or writes depends on the edge list's VALUES, so this stage has no closed index-by-index form; it is the same
  composition of gathers and scatters in both programs, and nothing below ever looks inside it.
-/
import proofs.«104477_j31327491457680_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀

/-! ## The two dense layers, index by index -/

/-- The linear layer `x · w`: entry `(r, j)` is the sum over `k` of `x (r, k) · w (k, j)`. -/
def linear (x : S50000x128.Idx → EReal) (w : S128x128.Idx → EReal) : S50000x128.Idx → EReal :=
  fun i => ∑ k : Fin 128, x (ix2 (i 0) k) * w (ix2 k (i 1))

/-- The output layer on an aggregated array `a`: entry `(r, j)` of `tanh (a + b1) · w2 + b2`, the two biases
    given as rows of shape [1, 128]. -/
def outLayer (a : S50000x128.Idx → EReal) (b1 : S1x128.Idx → EReal) (w2 : S128x128.Idx → EReal) (b2 : S1x128.Idx → EReal) :
    S50000x128.Idx → EReal :=
  fun i => (∑ k : Fin 128, Ideal.tanh (a (ix2 (i 0) k) + b1 (ix2 (0 : Fin 1) k)) * w2 (ix2 k (i 1))) + b2 (ix2 (0 : Fin 1) (i 1))

/-! ## The aggregation, as its host operations -/

section Aggregate

variable {F : FTy → Type} [FloatOps F] [Cert.KernelIdeal.Facts₀]

/-- The 640000 sources (row 0 of the edge list) followed by the 50000 self-loops `0 … 49999`. -/
def sources (e : IVec S2x640000 32) : IVec S690000 32 :=
  concatenate S690000 0 [⟨S640000, shapeCast _ (extractStridedSlice S1x640000 ![0, 0] e slices_S2x640000_S1x640000_0_0) shapeCasts_S1x640000_S640000⟩,
    ⟨S50000, iotaInDim S50000 32 0⟩] concatenates_S640000_S50000_S690000_d0

/-- The 640000 destinations (row 1 of the edge list) followed by the 50000 self-loops. -/
def targets (e : IVec S2x640000 32) : IVec S690000 32 :=
  concatenate S690000 0 [⟨S640000, shapeCast _ (extractStridedSlice S1x640000 ![1, 0] e slices_S2x640000_S1x640000_1_0) shapeCasts_S1x640000_S640000⟩,
    ⟨S50000, iotaInDim S50000 32 0⟩] concatenates_S640000_S50000_S690000_d0

/-- A node number read as a row to gather: a negative one counts from the end (`+ 50000`). -/
def fromEnd (v : IVec S690000 32) : IVec S690000 32 :=
  select (cmpi .slt v (broadcastInDim S690000 ![] bcast_S_S690000 (constantI S_ 32 0#32)))
    (addi v (broadcastInDim S690000 ![] bcast_S_S690000 (constantI S_ 32 50000#32))) v

/-- A per-edge vector as the one-column matrix the gathers and scatters index with. -/
def column {α : Type} (v : S690000.Idx → α) : S690000x1.Idx → α :=
  broadcastInDim S690000x1 ![0] bcast_S690000_S690000x1_0 v

/-- The in-degree of every node, self-loop included: ones scatter-added at the destinations. -/
def degree (e : IVec S2x640000 32) : FVec F S50000 .f32 :=
  Host.scatterAdd scatter_S50000_S690000x1_S690000_n_0_0_1 (broadcastInDim S50000 ![] bcast_S_S50000 (constant S_ .f32 0x00000000#32))
    (column (targets e)) (broadcastInDim S690000 ![] bcast_S_S690000 (constant S_ .f32 0x3F800000#32))

/-- `d^(-1/2)` where the degree is positive, `0` elsewhere. -/
def invSqrtDegree (e : IVec S2x640000 32) : FVec F S50000 .f32 :=
  select (cmpf (F := F) .ogt (degree e) (broadcastInDim S50000 ![] bcast_S_S50000 (constant S_ .f32 0x00000000#32)))
    (Host.rsqrt (degree e)) (broadcastInDim S50000 ![] bcast_S_S50000 (constant S_ .f32 0x00000000#32))

/-- One weight per edge: `d^(-1/2)` at its source times `d^(-1/2)` at its destination. -/
def edgeWeight (e : IVec S2x640000 32) : FVec F S690000 .f32 :=
  mulf (Host.gather gather_S50000_S690000x1_S690000_n_0_n_n_0_1_1 (invSqrtDegree e) (column (fromEnd (sources e))))
    (Host.gather gather_S50000_S690000x1_S690000_n_0_n_n_0_1_1 (invSqrtDegree e) (column (fromEnd (targets e))))

/-- The aggregation of node features `h` along the edges `e`: each edge carries its source's row, scaled by the
    edge's weight, and the rows arriving at a node are added up. -/
def aggregate (h : FVec F S50000x128 .f32) (e : IVec S2x640000 32) : FVec F S50000x128 .f32 :=
  Host.scatterAdd scatter_S50000x128_S690000x1_S690000x128_1_0_0_1 (broadcastInDim S50000x128 ![] bcast_S_S50000x128 (constant S_ .f32 0x00000000#32))
    (column (targets e))
    (mulf (broadcastInDim S690000x128 ![0, 1] bcast_S690000x1_S690000x128_0_1 (column (edgeWeight (F := F) e)))
      (Host.gather gather_S50000x128_S690000x1_S690000x128_1_0_n_n_0_1_1128 h (column (fromEnd (sources e)))))

end Aggregate

/-- The whole network at the extended reals, the biases as rows [1, 128]. -/
def network [Cert.KernelIdeal.Facts₀] (x : FVec Ideal S50000x128 .f32) (e : IVec S2x640000 32) (w1 : FVec Ideal S128x128 .f32)
    (b1 : FVec Ideal S1x128 .f32) (w2 : FVec Ideal S128x128 .f32) (b2 : FVec Ideal S1x128 .f32) : FVec Ideal S50000x128 .f32 :=
  outLayer (aggregate (F := Ideal) (linear x w1) e) b1 w2 b2

end Cert.Gcn

end
-- ==== Proof.BlockMatmul.lean ====
/-
  One block of a matrix product, entry by entry.

  Both kernels multiply a block of 2000 rows by a whole 128 × 128 matrix on the matrix unit, into an accumulator that
  starts at zero. On the extended reals that product's entry `(p, j)` is the sum over the contracted axis `k` of
  the left operand's `(p, k)` times the right operand's `(k, j)`: the zero accumulator adds nothing, and the
  contraction's index set — the one contracted axis, of extent 128 — is `Fin 128`.
-/
import proofs.«104477_j31327491457680_1_alg».proof.Proof.Gen.KernelIdeal
import Idealize.ShloMosaic.Lib.ValueIdx
import Idealize.ShloMosaic.PureOps.Ideal.Laws

noncomputable section

namespace Cert.Gcn

open Idealize.ShloMosaic Idealize.ShloMosaic.ValueIdx Cert.KernelIdeal Cert.KernelIdeal.Gen

/-- The left operand is read in the result's row: its axis 0 is not contracted. -/
theorem blockDot_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The right operand is read in the result's column: its axis 1 is not contracted. -/
theorem blockDot_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, j)` of a 2000 × 128 block times a 128 × 128 matrix, accumulated from zero:
    `∑ k, l (p, k) · r (k, j)`. -/
theorem blockMatmul_apply {φ₁ φ₂ : FTy} (l : FVec Ideal S2000x128 φ₁) (r : FVec Ideal S128x128 φ₂) (p : Fin 2000) (j : Fin 128) :
    FloatOps.matmul dot_S2000x128_S128x128_S2000x128_1_0_0_1_n_n none l r (constant S2000x128 .f32 0x00000000#32) (ix2 p j)
      = ∑ k : Fin 128, l (ix2 p k) * r (ix2 k j) := by
  refine (Ideal.matmul_constant_zero_apply dot_S2000x128_S128x128_S2000x128_1_0_0_1_n_n none l r (ix2 p j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun a => Fin.ext (by
    match a with
    | ⟨0, _⟩ => exact blockDot_lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun a => Fin.ext (by
    match a with
    | ⟨0, _⟩ => exact (dot_S2000x128_S128x128_S2000x128_1_0_0_1_n_n.rhsIdx_val_of_single rfl _ _).trans hk
    | ⟨1, _⟩ => exact blockDot_rhs_col _ _)
  rw [el, er]

end Cert.Gcn

end
-- ==== Proof.LinearRegion.lean ====
/-
  The first kernel's output array is the linear layer.

  The first kernel runs over 25 grid points. At point `t` it loads rows `2000 t … 2000 t + 1999` of `x` and the
  whole of `W1`, multiplies them on the matrix unit and stores the product as rows `2000 t … 2000 t + 1999` of
  its output. So what point `t` writes back is block `t` of ONE whole-array function, `linear x W1`: entry `p`
  of the block's row axis is row `2000 t + p` of both `x` and the output, and the contracted axis and the column
  axis are whole in every block. The 25 blocks of 2000 rows fill all 50000 rows — row `r` lies in block `r / 2000` —
  so the output array ends as `linear x W1`. Everything is stated at the buffer contents `V` the region is entered
  with, whatever they are.
-/
import proofs.«104477_j31327491457680_1_alg».proof.Proof.Gen.KernelIdeal.Frame
import proofs.«104477_j31327491457680_1_alg».proof.Proof.GcnSpec
import proofs.«104477_j31327491457680_1_alg».proof.Proof.BlockMatmul
import Idealize.ShloMosaic.Lib.Pipeline.Value

noncomputable section

namespace Cert.Gcn.LinearRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body loads and stores its staging buffers whole: at offsets zero. -/
theorem offsets_zero : (![0, 0] : Fin 2 → Nat) = fun _ => 0 := funext fun a => by fin_cases a <;> rfl

/-- The body's product at an entry, for any loaded blocks: `∑ k, x0 (p, k) · x1 (k, j)` (the changes of float
    format around the matrix unit are the identity on the extended reals). -/
theorem product_apply (x0 : Vec Ideal S2000x128 .f32) (x1 : Vec Ideal S128x128 .f32) (p : Fin 2000) (j : Fin 128) :
    k0_pay1 x0 x1 (ix2 p j) = ∑ k : Fin 128, x0 (ix2 p k) * x1 (ix2 k j) := by
  unfold k0_pay1
  exact blockMatmul_apply _ _ p j

/-- An entry of the body's product is the linear layer's entry `i`, once the loaded row of `x0` is row `i 0` of
    `X` and the loaded column of `x1` is column `i 1` of `W`. -/
theorem product_eq_linear (x0 : Vec Ideal S2000x128 .f32) (x1 : Vec Ideal S128x128 .f32)
    (X : S50000x128.Idx → EReal) (W : S128x128.Idx → EReal) (p : Fin 2000) (j : Fin 128) (i : S50000x128.Idx)
    (hx : ∀ k : Fin 128, x0 (ix2 p k) = X (ix2 (i 0) k)) (hw : ∀ k : Fin 128, x1 (ix2 k j) = W (ix2 k (i 1))) :
    k0_pay1 x0 x1 (ix2 p j) = linear X W i := by
  rw [product_apply]
  unfold linear
  exact Finset.sum_congr rfl fun k _ => by rw [hx k, hw k]

/-- The printed index maps, decided over the 25 grid points: the blocks of `x` and of the output move down the
    rows with the point, and `W1`'s one block stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the linear layer of the arrays as the region finds them. -/
theorem flushed_eq (c : Dev nD) (t : Fin cfg0.N) :
    (dat0 V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x128) offsets_zero, View.ld_unit_zero (S := S128x128) offsets_zero]
  obtain ⟨e0, e1, e2, e3, e4, e5⟩ := index_facts t
  funext y
  obtain ⟨p, j, rfl⟩ : ∃ (p : Fin 2000) (j : Fin 128), y = ix2 p j := ⟨y 0, y 1, eq_ix2 y⟩
  show k0_pay1 (iblk0 V c 0 t) (iblk0 V c 1 t) (ix2 p j) = linear (V c main_arg0) (V c main_arg2) (((cfg0.win 2).blk t).view.emb (ix2 p j))
  refine product_eq_linear (iblk0 V c 0 t) (iblk0 V c 1 t) (V c main_arg0) (V c main_arg2) p j _ (fun k => ?_) (fun k => ?_)
  · show V c main_arg0 (((cfg0.win 0).blk t).view.emb (ix2 p k)) = V c main_arg0 (ix2 ((((cfg0.win 2).blk t).view.emb (ix2 p j)) 0) k)
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_arg2 (((cfg0.win 1).blk t).view.emb (ix2 k j)) = V c main_arg2 (ix2 k ((((cfg0.win 2).blk t).view.emb (ix2 p j)) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * j.val = win0_2.index t (1 : Fin 2) * 128 + 1 * j.val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- THE BLOCKS FILL THE ARRAY: row `r` is in the block of point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := index_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE OUTPUT ARRAY after the region: the linear layer of `x` and `W1` as the region finds them. -/
theorem final (c : Dev nD) : (dat0 V c).arrAt 2 cfg0.N = linear (V c main_arg0) (V c main_arg2) :=
  (dat0 V c).arrAt_eq_of_cover 2 (linear (V c main_arg0) (V c main_arg2)) (fun t _ => flushed_eq V c t) cover

end Cert.Gcn.LinearRegion

end
-- ==== Proof.OutputRegion.lean ====
/-
  The second kernel's output array is the output layer.

  The second kernel also runs over 25 grid points. At point `t` it loads rows `2000 t … 2000 t + 1999` of the
  aggregated features `a`, the two bias rows and the whole of `W2`, forms `tanh (a + b1)` entry by entry (the
  bias row repeated down the 2000 rows), multiplies by `W2` on the matrix unit, adds `b2`'s row and stores the
  result as rows `2000 t … 2000 t + 1999` of its output. So what point `t` writes back is block `t` of ONE
  whole-array function, `outLayer a b1 W2 b2`, and the 25 blocks fill all 50000 rows: the output array ends as
  that function of the arrays the region is entered with (`V`), whatever they are.
-/
import proofs.«104477_j31327491457680_1_alg».proof.Proof.Gen.KernelIdeal.Frame
import proofs.«104477_j31327491457680_1_alg».proof.Proof.GcnSpec
import proofs.«104477_j31327491457680_1_alg».proof.Proof.BlockMatmul
import Idealize.ShloMosaic.Lib.Pipeline.Value
import Idealize.ShloMosaic.Lib.ValueLayout

noncomputable section

namespace Cert.Gcn.OutputRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body loads and stores its staging buffers whole: at offsets zero. -/
theorem offsets_zero : (![0, 0] : Fin 2 → Nat) = fun _ => 0 := funext fun a => by fin_cases a <;> rfl

/-- A bias row, cast to its own shape and repeated down the block's 2000 rows, reads the row's entry `j` at `(p, j)`. -/
theorem biasRows_apply (b : Vec Ideal S1x128 .f32) (p : Fin 2000) (j : Fin 128) :
    broadcastTo S2000x128 (shapeCast S1x128 b shapeCasts_S1x128_S1x128) broadcasts_S1x128_S2000x128 (ix2 p j) = b (ix2 (0 : Fin 1) j) := by
  rw [broadcastTo_1b_ab_apply, shapeCast_self]

/-- The body's stored value at an entry, for any loaded blocks:
    `∑ k, tanh (x0 (p, k) + x1 (0, k)) · x2 (k, j) + x3 (0, j)`. -/
theorem stored_apply (x0 : Vec Ideal S2000x128 .f32) (x1 : Vec Ideal S1x128 .f32) (x2 : Vec Ideal S128x128 .f32) (x3 : Vec Ideal S1x128 .f32)
    (p : Fin 2000) (j : Fin 128) :
    k1_pay1 x0 x1 x2 x3 (ix2 p j)
      = (∑ k : Fin 128, Ideal.tanh (x0 (ix2 p k) + x1 (ix2 (0 : Fin 1) k)) * x2 (ix2 k j)) + x3 (ix2 (0 : Fin 1) j) := by
  unfold k1_pay1
  refine congrArg₂ (· + ·) ?_ (biasRows_apply x3 p j)
  refine (blockMatmul_apply _ _ p j).trans (Finset.sum_congr rfl fun k _ => ?_)
  show Ideal.tanh (shapeCast S2000x128 x0 shapeCasts_S2000x128_S2000x128 (ix2 p k)
      + broadcastTo S2000x128 (shapeCast S1x128 x1 shapeCasts_S1x128_S1x128) broadcasts_S1x128_S2000x128 (ix2 p k)) * x2 (ix2 k j) = _
  rw [biasRows_apply, shapeCast_self]

/-- An entry of the body's stored value is the output layer's entry `i`, once the loaded row of `x0` is row `i 0`
    of `A`, the loaded column of `x2` is column `i 1` of `W`, and the loaded bias rows are `B1` and `B2`. -/
theorem stored_eq_outLayer (x0 : Vec Ideal S2000x128 .f32) (x1 : Vec Ideal S1x128 .f32) (x2 : Vec Ideal S128x128 .f32) (x3 : Vec Ideal S1x128 .f32)
    (A : S50000x128.Idx → EReal) (B1 : S1x128.Idx → EReal) (W : S128x128.Idx → EReal) (B2 : S1x128.Idx → EReal)
    (p : Fin 2000) (j : Fin 128) (i : S50000x128.Idx)
    (ha : ∀ k : Fin 128, x0 (ix2 p k) = A (ix2 (i 0) k)) (hb1 : ∀ k : Fin 128, x1 (ix2 (0 : Fin 1) k) = B1 (ix2 (0 : Fin 1) k))
    (hw : ∀ k : Fin 128, x2 (ix2 k j) = W (ix2 k (i 1))) (hb2 : x3 (ix2 (0 : Fin 1) j) = B2 (ix2 (0 : Fin 1) (i 1))) :
    k1_pay1 x0 x1 x2 x3 (ix2 p j) = outLayer A B1 W B2 i := by
  rw [stored_apply, hb2]
  unfold outLayer
  exact congrArg (· + B2 (ix2 (0 : Fin 1) (i 1))) (Finset.sum_congr rfl fun k _ => by rw [ha k, hb1 k, hw k])

/-- The printed index maps, decided over the 25 grid points: the blocks of the aggregated features and of the output
    move down the rows with the point; the bias rows' and `W2`'s one block stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the output layer of the arrays as the region finds them. -/
theorem flushed_eq (c : Dev nD) (t : Fin cfg1.N) :
    (dat1 V c).flushed 4 t = ((cfg1.win 4).blk t).view.read (Elt Ideal)
      (outLayer (V c main_v43) (V c main_v44) (V c main_arg4) (V c main_v45)) := by
  show (cfg1.win 4).cut (grid1.coords t) ((dat1 V c).after 4 t) = _
  rw [after1_4]
  unfold out1_4
  rw [View.canon_unit_zero offsets_zero]
  simp only [View.ld_unit_zero (S := S2000x128) offsets_zero, View.ld_unit_zero (S := S1x128) offsets_zero, View.ld_unit_zero (S := S128x128) offsets_zero]
  obtain ⟨e0, e1, e2, e3, e4, e5, e6, e7, e8, e9⟩ := index_facts t
  funext y
  obtain ⟨p, j, rfl⟩ : ∃ (p : Fin 2000) (j : Fin 128), y = ix2 p j := ⟨y 0, y 1, eq_ix2 y⟩
  show k1_pay1 (iblk1 V c 0 t) (iblk1 V c 1 t) (iblk1 V c 2 t) (iblk1 V c 3 t) (ix2 p j)
    = outLayer (V c main_v43) (V c main_v44) (V c main_arg4) (V c main_v45) (((cfg1.win 4).blk t).view.emb (ix2 p j))
  refine stored_eq_outLayer (iblk1 V c 0 t) (iblk1 V c 1 t) (iblk1 V c 2 t) (iblk1 V c 3 t)
    (V c main_v43) (V c main_v44) (V c main_arg4) (V c main_v45) p j _ (fun k => ?_) (fun k => ?_) (fun k => ?_) ?_
  · show V c main_v43 (((cfg1.win 0).blk t).view.emb (ix2 p k)) = V c main_v43 (ix2 ((((cfg1.win 4).blk t).view.emb (ix2 p j)) 0) k)
    refine congrArg _ (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * k.val = k.val; omega
  · show V c main_v44 (((cfg1.win 1).blk t).view.emb (ix2 (0 : Fin 1) k)) = V c main_v44 (ix2 (0 : Fin 1) k)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 k j)) = V c main_arg4 (ix2 k ((((cfg1.win 4).blk t).view.emb (ix2 p j)) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * j.val = win1_4.index t (1 : Fin 2) * 128 + 1 * j.val; omega
  · show V c main_v45 (((cfg1.win 3).blk t).view.emb (ix2 (0 : Fin 1) j)) = V c main_v45 (ix2 (0 : Fin 1) ((((cfg1.win 4).blk t).view.emb (ix2 p j)) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * j.val = win1_4.index t (1 : Fin 2) * 128 + 1 * j.val; omega

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- THE BLOCKS FILL THE ARRAY: row `r` is in the block of point `r / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5, e6, e7, e8, e9⟩ := index_facts t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE OUTPUT ARRAY after the region: the output layer of the aggregated features, the bias rows and `W2` as the
    region finds them. -/
theorem final (c : Dev nD) :
    (dat1 V c).arrAt 4 cfg1.N = outLayer (V c main_v43) (V c main_v44) (V c main_arg4) (V c main_v45) :=
  (dat1 V c).arrAt_eq_of_cover 4 (outLayer (V c main_v43) (V c main_v44) (V c main_arg4) (V c main_v45)) (fun t _ => flushed_eq V c t) cover

end Cert.Gcn.OutputRegion

end
-- ==== Proof.Between.lean ====
/-
  Between the two kernels: what the second kernel is entered with.

  The host operations between the two regions compute, from the first kernel's output `h` and the edge list `e`,
  the aggregated features — exactly the composition `aggregate h e` of the specification — and reshape the two
  bias vectors [128] into rows [1, 128]; `W2` is touched by nothing. The buffer contents at the second region's
  entry are the fold of those operations over the contents `W1` the first region leaves, so each of the second
  kernel's four input arrays, read off that fold, is a term over `W1`: the operations' results one after the other.
-/
import proofs.«104477_j31327491457680_1_alg».proof.Proof.Gen.KernelIdeal.Frame
import proofs.«104477_j31327491457680_1_alg».proof.Proof.GcnSpec
import Idealize.ShloMosaic.Lib.StableHlo.Run

set_option maxRecDepth 16384

noncomputable section

namespace Cert.Gcn.Between

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The second kernel's first input array: the aggregation of the first kernel's output along the edge list, both
    as the first region leaves them. -/
theorem entry_aggregate (c : Dev nD) :
    (V4 m ρ c main_v43 : FVec F S50000x128 .f32)
      = aggregate (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  simp only [hostOps1, hostOps1_1, hostOps1_2]
  after_results_simp <;> rfl

set_option maxHeartbeats 4000000 in
/-- The second kernel's second input array: the first bias as a row. -/
theorem entry_bias1 (c : Dev nD) :
    (V4 m ρ c main_v44 : FVec F S1x128 .f32) = shapeCast S1x128 (W1 m ρ c (Proc.devRef .tc main_arg3)) shapeCasts_S128_S1x128 := by
  show StableHlo.after hostOps1_2 (StableHlo.after hostOps1_1 (StableHlo.after hostOps1 (W1 m ρ c))) (Proc.devRef .tc main_v44) = _
  simp only [hostOps1, hostOps1_1, hostOps1_2]
  after_results_simp <;> rfl

set_option maxHeartbeats 4000000 in
/-- The second kernel's fourth input array: the second bias as a row. -/
theorem entry_bias2 (c : Dev nD) :
    (V4 m ρ c main_v45 : FVec F S1x128 .f32) = shapeCast S1x128 (W1 m ρ c (Proc.devRef .tc main_arg5)) shapeCasts_S128_S1x128 := by
  show StableHlo.after hostOps1_2 (StableHlo.after hostOps1_1 (StableHlo.after hostOps1 (W1 m ρ c))) (Proc.devRef .tc main_v45) = _
  simp only [hostOps1, hostOps1_1, hostOps1_2]
  after_results_simp <;> rfl

set_option maxHeartbeats 4000000 in
/-- The second kernel's third input array, `W2`: no host operation writes it. -/
theorem entry_weight2 (c : Dev nD) :
    (V4 m ρ c main_arg4 : FVec F S128x128 .f32) = W1 m ρ c (Proc.devRef .tc main_arg4) := by
  show StableHlo.after hostOps1_2 (StableHlo.after hostOps1_1 (StableHlo.after hostOps1 (W1 m ρ c))) (Proc.devRef .tc main_arg4) = _
  simp only [hostOps1, hostOps1_1, hostOps1_2]
  after_results_simp <;> rfl

/-- An array that is not one of the first kernel's three keeps its launch contents through the first region. -/
theorem after_first_of_ne (c : Dev nD) (b : Ref sig .tc) (hb : ∀ w, Pipeline.arrRef spec0 w ≠ b) :
    W1 m ρ c (Proc.devRef .tc b) = m ((c : Thread nD τ).loc b) :=
  (W1_of_ne m ρ c b hb).trans rfl

end Cert.Gcn.Between

end
-- ==== Proof.KernelValue.lean ====
/-
  The kernel program's result is the specification's network.

  Putting the pieces in order. The first region leaves its output at `linear x W1` of the launched `x` and `W1`
  and touches nothing else; the host operations turn that and the launched edge list into `aggregate (linear x W1) e`
  and the launched biases into rows; the second region, entered with those four arrays, leaves its output — the
  program's result — at `outLayer` of them. So at the last boundary the result buffer holds `network` of the six
  launched arguments, and the run's post can say so.
-/
import proofs.«104477_j31327491457680_1_alg».proof.Proof.KernelRun
import proofs.«104477_j31327491457680_1_alg».proof.Proof.LinearRegion
import proofs.«104477_j31327491457680_1_alg».proof.Proof.OutputRegion
import proofs.«104477_j31327491457680_1_alg».proof.Proof.Between

noncomputable section

namespace Cert.Gcn.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the first region leaves in its output array: the linear layer of `x` and `W1` as launched. -/
theorem first_output (c : Dev nD) :
    (W1 m ρ c (Proc.devRef .tc main_v0) : FVec Ideal S50000x128 .f32)
      = linear (m ((c : Thread nD τ).loc main_arg0)) (m ((c : Thread nD τ).loc main_arg2)) :=
  (W1_arr m ρ c 2).trans (LinearRegion.final (V0 m ρ) c)

/-- What the last boundary holds at the result: the network of the six launched arguments, the biases as rows. -/
theorem last_boundary (c : Dev nD) :
    (W5 m ρ c (Proc.devRef .tc main_v46) : FVec Ideal S50000x128 .f32)
      = network (m ((c : Thread nD τ).loc main_arg0)) (m ((c : Thread nD τ).loc main_arg1)) (m ((c : Thread nD τ).loc main_arg2))
          (shapeCast S1x128 (m ((c : Thread nD τ).loc main_arg3)) Facts₀.shapeCasts_S128_S1x128) (m ((c : Thread nD τ).loc main_arg4))
          (shapeCast S1x128 (m ((c : Thread nD τ).loc main_arg5)) Facts₀.shapeCasts_S128_S1x128) := by
  refine (W5_arr m ρ c 4).trans ((OutputRegion.final (V4 m ρ) c).trans ?_)
  have ha := Between.entry_aggregate m ρ c
  rw [first_output m ρ c, Between.after_first_of_ne m ρ c main_arg1 (by decide)] at ha
  have hb1 := Between.entry_bias1 m ρ c
  rw [Between.after_first_of_ne m ρ c main_arg3 (by decide)] at hb1
  have hb2 := Between.entry_bias2 m ρ c
  rw [Between.after_first_of_ne m ρ c main_arg5 (by decide)] at hb2
  have hw := (Between.entry_weight2 m ρ c).trans (Between.after_first_of_ne m ρ c main_arg4 (by decide))
  unfold network
  exact congr (congr (congr (congrArg outLayer ha) hb1) hw) hb2

/-- THE KERNEL PROGRAM'S RUN: every weakly fair execution terminates, nothing faulting, with the result at the
    network of the launched arguments and the arguments unchanged. -/
theorem run_value : θ_run defs (onTc (τ := τ) (main (F := Ideal))) ⟨m, fun _ => 0, ρ⟩ (fun r => ∀ c : Dev nD,
      r.2.mem ((c.tc : Thread nD τ).loc main_v46) = network (m ((c : Thread nD τ).loc main_arg0)) (m ((c : Thread nD τ).loc main_arg1)) (m ((c : Thread nD τ).loc main_arg2))
          (shapeCast S1x128 (m ((c : Thread nD τ).loc main_arg3)) Facts₀.shapeCasts_S128_S1x128) (m ((c : Thread nD τ).loc main_arg4))
          (shapeCast S1x128 (m ((c : Thread nD τ).loc main_arg5)) Facts₀.shapeCasts_S128_S1x128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (last_boundary m ρ c), (h c).2⟩) (KernelRun.run_named m ρ)

end Cert.Gcn.KernelValue

end
-- ==== Proof.RefValue.lean ====
/-
  The reference program's result is the specification's network.

  The reference computes the same three stages on the host: `x · W1` by one whole `dot_general`, the aggregation by
  the same gathers and scatters as the kernel program's host operations, then `tanh (· + b1)`, one whole
  `dot_general` with `W2`, and `+ b2`, each bias broadcast [128] → [1, 128] → [50000, 128]. Read at an index
  `(r, j)`: a `dot_general` over one contracted axis is the sum over `k` of the left operand's `(r, k)` times the
  right operand's `(k, j)`; a bias broadcast that way reads the vector's entry `j` whatever the row, which is also
  what the vector recast as a row [1, 128] reads at `(0, j)`; `tanh` and `+` act entry by entry. That is
  `outLayer` of the aggregated `linear x W1`, the biases given as rows.
-/
import proofs.«104477_j31327491457680_1_alg».proof.Proof.RefRead
import proofs.«104477_j31327491457680_1_alg».proof.Proof.GcnSpec
import proofs.«104477_j31327491457680_1_alg».proof.Proof.Gen.KernelIdeal
import Idealize.ShloMosaic.Lib.ValueLayout

noncomputable section

namespace Cert.Gcn.Reference

open Cert.ReferenceIdeal Cert.ReferenceIdeal.Gen Cert.ReferenceIdeal.ReadP Idealize.ShloMosaic Idealize.ShloMosaic.ValueIdx

/-! ## Index functions: the composed reads are the coordinate constructors -/

theorem lhs_first (r : Fin 50000) (j k : Fin 128) : lidx_main_v30 (ix2 r j) k = ix2 r k :=
  funext fun a => Fin.ext (by match a with | ⟨0, _⟩ => rfl | ⟨1, _⟩ => rfl)
theorem rhs_first (r : Fin 50000) (j k : Fin 128) : ridx_main_v30 (ix2 r j) k = ix2 k j :=
  funext fun a => Fin.ext (by match a with | ⟨0, _⟩ => rfl | ⟨1, _⟩ => rfl)
theorem lhs_second (r : Fin 50000) (j k : Fin 128) : lidx_main_v48 (ix2 r j) k = ix2 r k :=
  funext fun a => Fin.ext (by match a with | ⟨0, _⟩ => rfl | ⟨1, _⟩ => rfl)
theorem rhs_second (r : Fin 50000) (j k : Fin 128) : ridx_main_v48 (ix2 r j) k = ix2 k j :=
  funext fun a => Fin.ext (by match a with | ⟨0, _⟩ => rfl | ⟨1, _⟩ => rfl)
/-- The first bias, broadcast to every row, is read at the column `k` of the entry it is added to. -/
theorem bias_first (r : Fin 50000) (k : Fin 128) : idx_main_v44 (idx_main_v45 (ix2 r k)) = ix1 k :=
  funext fun a => Fin.ext (by match a with | ⟨0, _⟩ => rfl)
/-- The second bias is read at the result entry's column. -/
theorem bias_second (r : Fin 50000) (j : Fin 128) : idx_main_v49 (idx_main_v50 (ix2 r j)) = ix1 j :=
  funext fun a => Fin.ext (by match a with | ⟨0, _⟩ => rfl)

/-- The output layer read at row `r`, column `j` (over arbitrary arrays: nothing is evaluated). -/
theorem outLayer_apply (a : Cert.KernelIdeal.S50000x128.Idx → EReal) (b1 : Cert.KernelIdeal.S1x128.Idx → EReal)
    (w2 : Cert.KernelIdeal.S128x128.Idx → EReal) (b2 : Cert.KernelIdeal.S1x128.Idx → EReal) (r : Fin 50000) (j : Fin 128) :
    outLayer a b1 w2 b2 (ix2 r j)
      = (∑ k : Fin 128, Ideal.tanh (a (ix2 r k) + b1 (ix2 (0 : Fin 1) k)) * w2 (ix2 k j)) + b2 (ix2 (0 : Fin 1) j) := rfl

/-! ## The three stages -/

/-- The reference's first `dot_general` is the linear layer. -/
theorem first_product (x0 : (⟨S50000x128, .f32⟩ : BufTy).Contents (Elt Ideal)) (x2 : (⟨S128x128, .f32⟩ : BufTy).Contents (Elt Ideal)) :
    val_main_v30 (F := Ideal) x0 x2 = linear x0 x2 := by
  funext i
  obtain ⟨r, j, rfl⟩ : ∃ (r : Fin 50000) (j : Fin 128), i = ix2 r j := ⟨i 0, i 1, eq_ix2 i⟩
  rw [val_main_v30_apply]
  unfold linear
  exact Finset.sum_congr rfl fun k _ => congrArg₂ (· * ·) (congrArg x0 (lhs_first r j k)) (congrArg x2 (rhs_first r j k))

/-- The reference's scatter-add stage is the specification's aggregation of its first product: the same host
    operations, composed in the same order. -/
theorem aggregated {F : FTy → Type} [FloatOps F] (x0 : (⟨S50000x128, .f32⟩ : BufTy).Contents (Elt F)) (x1 : (⟨S2x640000, .i32⟩ : BufTy).Contents (Elt F))
    (x2 : (⟨S128x128, .f32⟩ : BufTy).Contents (Elt F)) :
    val_main_v43 (F := F) x0 x1 x2 = aggregate (F := F) (val_main_v30 (F := F) x0 x2) x1 := rfl

/-- THE REFERENCE'S RESULT as a function of the six arguments: the network, the biases as rows. -/
theorem value_eq (x0 : (⟨S50000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v51 (F := Ideal) x0 x1 x2 x3 x4 x5
      = network x0 x1 x2 (shapeCast Cert.KernelIdeal.S1x128 x3 Cert.KernelIdeal.Facts₀.shapeCasts_S128_S1x128) x4
          (shapeCast Cert.KernelIdeal.S1x128 x5 Cert.KernelIdeal.Facts₀.shapeCasts_S128_S1x128) := by
  funext i
  obtain ⟨r, j, rfl⟩ : ∃ (r : Fin 50000) (j : Fin 128), i = ix2 r j := ⟨i 0, i 1, eq_ix2 i⟩
  rw [val_main_v51_apply, val_main_v48_apply, val_main_v50_apply, val_main_v49_apply, bias_second r j, Ideal.addf_def]
  unfold network
  rw [outLayer_apply]
  refine congrArg₂ (· + ·) (Finset.sum_congr rfl fun k _ => ?_) (shapeCast_a_1a_apply x5 _ (0 : Fin 1) j).symm
  rw [lhs_second r j k, rhs_second r j k, val_main_v47_apply, val_main_v46_apply, val_main_v45_apply, val_main_v44_apply, bias_first r k,
    aggregated, first_product, Ideal.hostUnary_tanh_def, Ideal.addf_def, shapeCast_a_1a_apply x3 _ (0 : Fin 1) k]

end Cert.Gcn.Reference

end
-- ==== Proof.lean ====
/-
  A two-layer graph convolution: a Pallas implementation against its jnp reference, equal on the extended reals.

  Both programs compute  out = tanh (A (x · W1) + b1) · W2 + b2  on 50000 nodes with 128 features, where `A` is the
  degree-normalised adjacency of 640000 directed edges plus one self-loop per node (Proof/GcnSpec.lean states the
  three stages). They differ only in where the two dense layers run:
    * the kernel program computes `x · W1` in a first kernel, 2000 rows at a grid point, runs the aggregation as host
      gathers and scatters, and computes `tanh (· + b1) · W2 + b2` in a second kernel, again 2000 rows at a point,
      the biases reshaped to rows [1, 128];
    * the reference computes each dense layer as one whole `dot_general` on the host, the biases broadcast.
  On the extended reals a change of float format is the identity, a product accumulated from zero on the matrix unit
  and the host's `dot_general` are the same sum over the contracted axis, and a tiling of the rows changes nothing:
  each kernel's output array is ONE whole-array function of its input arrays (Proof/LinearRegion.lean,
  Proof/OutputRegion.lean), the host operations between the kernels are the specification's aggregation
  (Proof/Between.lean), so the kernel program's result is `network` of the six arguments (Proof/KernelValue.lean) —
  and so is the reference's (Proof/RefValue.lean). The aggregation is the same composition of operations on both
  sides and is never opened; no step moves a factor across a sum or cancels anything, so the equality holds for every
  input, infinite ones included, and the precondition is not used.

  The frames: each program runs to the end without a fault and leaves its arguments as launched — the kernel
  programs by their generated frame certificates, the reference by its run with the result dropped. The idealized
  kernel program is the kernel program's own text read at the extended reals (no operation was rewritten), so there
  is nothing to preserve.
-/
import proofs.«104477_j31327491457680_1_alg».proof.Defs
import proofs.«104477_j31327491457680_1_alg».proof.Proof.Gen.Kernel
import proofs.«104477_j31327491457680_1_alg».proof.Proof.Gen.Kernel.Frame
import proofs.«104477_j31327491457680_1_alg».proof.Proof.Gen.KernelIdeal
import proofs.«104477_j31327491457680_1_alg».proof.Proof.Gen.KernelIdeal.Frame
import proofs.«104477_j31327491457680_1_alg».proof.Proof.Gen.ReferenceIdeal
import proofs.«104477_j31327491457680_1_alg».proof.Proof.Gen.Pre_finite_inputs
import proofs.«104477_j31327491457680_1_alg».proof.Proof.RefRun
import proofs.«104477_j31327491457680_1_alg».proof.Proof.RefRead
import proofs.«104477_j31327491457680_1_alg».proof.Proof.KernelValue
import proofs.«104477_j31327491457680_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- No operation was rewritten by the idealization: nothing to preserve. -/
theorem preserves : Cert.preserves_Kernel_KernelIdeal := trivial

/-- From memories agreeing on the six arguments, both programs end with the result at `network` of those arguments:
    the kernel program by its run read through both regions and the host operations between them, the reference by
    its run read one operation at a time. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Facts₀.shapeCasts_S128_S1x128) (m ((c.tc : Thread Cert.KernelIdeal.nD Cert.KernelIdeal.τ).loc Cert.KernelIdeal.main_arg4))
      (shapeCast Cert.KernelIdeal.S1x128 (m ((c.tc : Thread Cert.KernelIdeal.nD Cert.KernelIdeal.τ).loc Cert.KernelIdeal.main_arg5)) Cert.KernelIdeal.Facts₀.shapeCasts_S128_S1x128),
    Cert.Gcn.KernelValue.run_value m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v51_eq, Cert.Gcn.Reference.value_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
